-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x256 : Shape := ⟨3, ![4, 256, 256]⟩
abbrev S256x512 : Shape := ⟨2, ![256, 512]⟩
abbrev S256 : Shape := ⟨1, ![256]⟩
abbrev S_ : Shape := ⟨0, ![]⟩

class Facts : Prop where
  bcast_S_S4x256x256 : S_.BroadcastsInDim S4x256x256 (![] : Fin 0 → Fin S4x256x256.rank)
  reducesTo_S4x256x256_S_d0_1_2 : S4x256x256.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S4x256x256 .f32) (main_arg1 : FVec F S256x512 .f32) (main_arg2 : FVec F S256 .f32) : IVec S_ 1 :=
  let main_v0 : FVec F S4x256x256 .f32 := Host.absf main_arg0
  let main_cst : FVec F S_ .f32 := constant S_ .f32 0x7F800000#32
  let main_v1 : FVec F S4x256x256 .f32 := broadcastInDim S4x256x256 ![] bcast_S_S4x256x256 main_cst
  let main_v2 : IVec S4x256x256 1 := cmpf .olt main_v0 main_v1
  let main_c : IVec S_ 1 := constantI S_ 1 1#1
  let main_v3 : IVec S_ 1 := (fun x v => Host.reduce IntOp.andi x v reducesTo_S4x256x256_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S4x256x256 : Shape := ⟨3, ![4, 256, 256]⟩
abbrev S256x512 : Shape := ⟨2, ![256, 512]⟩
abbrev S256 : Shape := ⟨1, ![256]⟩
abbrev S256x256 : Shape := ⟨2, ![256, 256]⟩
abbrev S1x256 : Shape := ⟨2, ![1, 256]⟩
abbrev S4x256x256x256 : Shape := ⟨4, ![4, 256, 256, 256]⟩
abbrev S1x64x256 : Shape := ⟨3, ![1, 64, 256]⟩
abbrev S1x128x256 : Shape := ⟨3, ![1, 128, 256]⟩
abbrev S1x64x128x256 : Shape := ⟨4, ![1, 64, 128, 256]⟩
abbrev S64x256 : Shape := ⟨2, ![64, 256]⟩
abbrev S128x256 : Shape := ⟨2, ![128, 256]⟩
abbrev S1x1x256 : Shape := ⟨3, ![1, 1, 256]⟩
abbrev S64x1x256 : Shape := ⟨3, ![64, 1, 256]⟩
abbrev S64x128x256 : Shape := ⟨3, ![64, 128, 256]⟩

abbrev nBuf : Space → Nat
  | .hbm => 12
  | .vmem => 8
  | .smem => 0
  | _ => 0

abbrev bufTy : (tb : Table) → Fin (tcTables nBuf tb) → BufTy
  | .hbm, ⟨0, _⟩ => ⟨S4x256x256, .f32⟩
  | .hbm, ⟨1, _⟩ => ⟨S256x512, .f32⟩
  | .hbm, ⟨2, _⟩ => ⟨S256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x512, .f32⟩
  | .hbm, ⟨8, _⟩ => ⟨S4x256x256, .bf16⟩
  | .hbm, ⟨9, _⟩ => ⟨S256x512, .bf16⟩
  | .hbm, ⟨10, _⟩ => ⟨S1x256, .f32⟩
  | .hbm, ⟨11, _⟩ => ⟨S4x256x256x256, .f32⟩
  | .local _ .vmem, ⟨0, _⟩ => ⟨S1x64x256, .bf16⟩
  | .local _ .vmem, ⟨1, _⟩ => ⟨S1x64x256, .bf16⟩
  | .local _ .vmem, ⟨2, _⟩ => ⟨S1x128x256, .bf16⟩
  | .local _ .vmem, ⟨3, _⟩ => ⟨S1x128x256, .bf16⟩
  | .local _ .vmem, ⟨4, _⟩ => ⟨S256x512, .bf16⟩
  | .local _ .vmem, ⟨5, _⟩ => ⟨S1x256, .f32⟩
  | .local _ .vmem, ⟨6, _⟩ => ⟨S1x64x128x256, .f32⟩
  | .local _ .vmem, ⟨7, _⟩ => ⟨S1x64x128x256, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x64x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  slices_S256x512_S256x256_0_0 : S256x512.Slices ![0, 0] S256x256
  slices_S256x512_S256x256_0_256 : S256x512.Slices ![0, 256] S256x256
  transposes_S256x256_S256x256_1_0 : S256x256.Transposes [1, 0] S256x256
  concatenates_S256x256_S256x256_S256x512_d1 : Shape.Concatenates [S256x256, S256x256] S256x512 1
  bitsLt_bf16_f32 : FTy.bits .bf16 < FTy.bits .f32
  shapeCasts_S256_S1x256 : S256.ShapeCasts S1x256
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S256x512_S256x256_0_0 : ∀ a, (![0, 0] : Fin 2 → Nat) a + S256x256.size a ≤ S256x512.size a
  h_S256x256 : 0 < S256x256.numel
  shapeCasts_S256x256_S256x256 : S256x256.ShapeCasts S256x256
  inb_S256x512_S256x256_0_256 : ∀ a, (![0, 256] : Fin 2 → Nat) a + S256x256.size a ≤ S256x512.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x1x256 : S1x256.ShapeCasts S1x1x256
  shapeCasts_S64x256_S64x1x256 : S64x256.ShapeCasts S64x1x256
  shapeCasts_S128x256_S1x128x256 : S128x256.ShapeCasts S1x128x256
  broadcasts_S64x1x256_S64x128x256 : S64x1x256.Broadcasts S64x128x256
  broadcasts_S1x128x256_S64x128x256 : S1x128x256.Broadcasts S64x128x256
  broadcasts_S1x1x256_S64x128x256 : S1x1x256.Broadcasts S64x128x256
  inb_S1x64x128x256_S1x64x128x256_0_0_0_0 : ∀ a, (![0, 0, 0, 0] : Fin 4 → Nat) a + S1x64x128x256.size a ≤ S1x64x128x256.size a
  h_S1x64x128x256 : 0 < S1x64x128x256.numel
  shapeCasts_S1x64x128x256_S64x128x256 : S1x64x128x256.ShapeCasts S64x128x256
  shapeCasts_S64x128x256_S1x64x128x256 : S64x128x256.ShapeCasts S1x64x128x256
  dot_S64x256_S256x256_S64x256_1_0_0_1_n_n_wf : DotDims.WF S64x256 S256x256 S64x256 [1] [0] [0] [1] [] []
  dot_S128x256_S256x256_S128x256_1_0_0_1_n_n_wf : DotDims.WF S128x256 S256x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x256.size a ≤ S4x256x256.size a
  hwx0_0 : ∀ i : grid0.Coords, EltTy.bits .bf16 = 32 ∨ (Rect.block (s := S4x256x256) S1x64x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x256.size a ≤ S4x256x256.size a
  hwx0_1 : ∀ i : grid0.Coords, EltTy.bits .bf16 = 32 ∨ (Rect.block (s := S4x256x256) S1x128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x128x256.size a ≤ S4x256x256x256.size a
  hwx0_4 : ∀ i : grid0.Coords, EltTy.bits .f32 = 32 ∨ (Rect.block (s := S4x256x256x256) S1x64x128x256.size (cc0_transform_4 i) (hinb0_4 i)).WholeWords (EltTy.packing .f32)

variable [Facts₀]

def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf

abbrev win0_0 : Pipeline.Window sig grid0 :=
  Pipeline.Window.ofSpec (Memref.whole main_v5) S1x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x64x128x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x256x256 : Shape := ⟨3, ![4, 256, 256]⟩
abbrev S256x512 : Shape := ⟨2, ![256, 512]⟩
abbrev S256 : Shape := ⟨1, ![256]⟩
abbrev S256x256 : Shape := ⟨2, ![256, 256]⟩
abbrev S4x256x1x256 : Shape := ⟨4, ![4, 256, 1, 256]⟩
abbrev S4x1x256x256 : Shape := ⟨4, ![4, 1, 256, 256]⟩
abbrev S4x256x256x256 : Shape := ⟨4, ![4, 256, 256, 256]⟩
abbrev S1x1x1x256 : Shape := ⟨4, ![1, 1, 1, 256]⟩

abbrev nBuf : Space → Nat
  | .hbm => 15
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S256x512, .f32⟩
  | .hbm, ⟨2, _⟩ => ⟨S256, .f32⟩
  | .hbm, ⟨3, _⟩ => ⟨S256x256, .f32⟩
  | .hbm, ⟨4, _⟩ => ⟨S256x256, .f32⟩
  | .hbm, ⟨5, _⟩ => ⟨S4x256x256, .f32⟩
  | .hbm, ⟨6, _⟩ => ⟨S4x256x256, .f32⟩
  | .hbm, ⟨7, _⟩ => ⟨S4x256x1x256, .f32⟩
  | .hbm, ⟨8, _⟩ => ⟨S4x1x256x256, .f32⟩
  | .hbm, ⟨9, _⟩ => ⟨S4x256x256x256, .f32⟩
  | .hbm, ⟨10, _⟩ => ⟨S4x256x256x256, .f32⟩
  | .hbm, ⟨11, _⟩ => ⟨S4x256x256x256, .f32⟩
  | .hbm, ⟨12, _⟩ => ⟨S1x1x1x256, .f32⟩
  | .hbm, ⟨13, _⟩ => ⟨S4x256x256x256, .f32⟩
  | .hbm, ⟨14, _⟩ => ⟨S4x256x256x256, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  slices_S256x512_S256x256_0_0 : S256x512.Slices ![0, 0] S256x256
  slices_S256x512_S256x256_0_256 : S256x512.Slices ![0, 256] S256x256
  bcast_S4x256x256_S4x256x1x256_0_1_3 : S4x256x256.BroadcastsInDim S4x256x1x256 (![0, 1, 3] : Fin 3 → Fin S4x256x1x256.rank)
  bcast_S4x256x256_S4x1x256x256_0_2_3 : S4x256x256.BroadcastsInDim S4x1x256x256 (![0, 2, 3] : Fin 3 → Fin S4x1x256x256.rank)
  bcast_S4x256x1x256_S4x256x256x256_0_1_2_3 : S4x256x1x256.BroadcastsInDim S4x256x256x256 (![0, 1, 2, 3] : Fin 4 → Fin S4x256x256x256.rank)
  bcast_S4x1x256x256_S4x256x256x256_0_1_2_3 : S4x1x256x256.BroadcastsInDim S4x256x256x256 (![0, 1, 2, 3] : Fin 4 → Fin S4x256x256x256.rank)
  bcast_S256_S1x1x1x256_3 : S256.BroadcastsInDim S1x1x1x256 (![3] : Fin 1 → Fin S1x1x1x256.rank)
  bcast_S1x1x1x256_S4x256x256x256_0_1_2_3 : S1x1x1x256.BroadcastsInDim S4x256x256x256 (![0, 1, 2, 3] : Fin 4 → Fin S4x256x256x256.rank)
  dot_S4x256x256_S256x256_S4x256x256_2_1_01_0_n_n_wf : DotDims.WF S4x256x256 S256x256 S4x256x256 [2] [1] [0, 1] [0] [] []

variable [Facts₀]

def dot_S4x256x256_S256x256_S4x256x256_2_1_01_0_n_n : DotDims S4x256x256 S256x256 S4x256x256 where
  lhsContracting := [2]
  rhsContracting := [1]
  lhsNonContracting := [0, 1]
  rhsNonContracting := [0]
  lhsBatch := []
  rhsBatch := []
  wf := dot_S4x256x256_S256x256_S4x256x256_2_1_01_0_n_n_wf

class Facts : Prop extends Facts₀ where

variable [Facts]
-- ==== Proof.LibSharedFrame.lean ====
/-
  The frame run of a one-region pipeline whose INPUT windows may share an array.

  A kernel handed one array through two input windows reads two different blocks of it at each grid point.
  Neither window writes the array, so the array's full share can be dealt among the windows on it; every
  other unscoped buffer bypasses the region and is read back at the end unchanged. The statement is the
  library's frame run with the arrays' distinctness replaced by the one entailment that says how the
  distinct buffers behind the arrays, each held whole, make up the windows' holdings at entry.
-/
import Idealize.ShloMosaic.Lib.Pipeline.Frame

noncomputable section

namespace Cert.Lib

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.Rounds
open TcCoe

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run when windows may share arrays: the region invariant is entered from the scoped rest and returns it;
    the buffers behind the windows' arrays, whole at the entry contents, yield the windows' holdings (`hsplit`);
    every array ends at what the write-backs leave and every bypassing buffer as the region found it. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := BI.Entails.refl _)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr
      · iempintro
      · iexact HU)
    (hin := fun c => (show iprop(emp ∗ scopedRest (cfgs p).spec c) ⊢ (scopedRest (cfgs p).spec c : sProp 𝕄) from by
      iintro ⟨-, H⟩; iexact H).trans (hin c))
    (hout := fun c => (hout c).trans (by
      iintro H
      isplitr
      · iempintro
      · iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.Lib

end
-- ==== Proof.KFrame.lean ====
/-
  The frame of the pairwise-projection program and what its result array holds after the run.

  The program's one kernel region runs over a 4 × 4 × 2 grid. At the point (b, i, j) it is handed a 64-row block
  of the bf16 copy of `x` (rows 64·i … of batch b), a 128-row block of THE SAME ARRAY (rows 128·j … of batch b),
  the whole transposed weight matrix, the bias row, and writes one 64 × 128 × 256 block of the result. The two
  input windows on one array only read it, so each holds half of the array's share for the whole run; the weights
  and the bias are fetched once and found again at every later point; the result's block is written back at every
  point. What the body leaves in the result's buffer is one store of one pure value of its five loads, so the
  buffer after the body is that value, and each input buffer is left as found.
-/
import proofs.«116326_j55379308314761_2_alg».proof.Proof.Gen.Kernel.Launch
import proofs.«116326_j55379308314761_2_alg».proof.Proof.Gen.Kernel.Skeleton
import proofs.«116326_j55379308314761_2_alg».proof.Proof.Gen.Kernel.Points
import proofs.«116326_j55379308314761_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The TensorCore's buffers when the region is entered: the launch contents after the eight host operations
    (the two slices of the weights, their transposes, the concatenation, the two changes of format, the reshape
    of the bias). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is those host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev r0_0 : Rect S1x64x256 := Rect.unit (s := S1x64x256) ![0, 0, 0] S1x64x256.size inb_S1x64x256_S1x64x256_0_0_0
abbrev r0_1 : Rect S1x128x256 := Rect.unit (s := S1x128x256) ![0, 0, 0] S1x128x256.size inb_S1x128x256_S1x128x256_0_0_0
abbrev r0_2a : Rect S256x512 := Rect.unit (s := S256x512) ![0, 0] S256x256.size inb_S256x512_S256x256_0_0
abbrev r0_2b : Rect S256x512 := Rect.unit (s := S256x512) ![0, 256] S256x256.size inb_S256x512_S256x256_0_256
abbrev r0_3 : Rect S1x256 := Rect.unit (s := S1x256) ![0, 0] S1x256.size inb_S1x256_S1x256_0_0
abbrev r0_4 : Rect S1x64x128x256 := Rect.unit (s := S1x64x128x256) ![0, 0, 0, 0] S1x64x128x256.size inb_S1x64x128x256_S1x64x128x256_0_0_0_0

/-- The result window's buffer after the body, from the four input buffers' contents: its one store. -/
def out0_4 (x0 : Vec F S1x64x256 .bf16) (x1 : Vec F S1x128x256 .bf16) (x2 : Vec F S256x512 .bf16) (x3 : Vec F S1x256 .f32) : Vec F S1x64x128x256 .f32 :=
  View.canon [⟨r0_4, k0_pay1 (View.ld x0 r0_0) (View.ld x1 r0_1) (View.ld x2 r0_2a) (View.ld x2 r0_2b) (View.ld x3 r0_3)⟩]

/-- That store is the whole buffer. -/
theorem cover0_4 (p0 : Vec F S1x64x128x256 .f32) (y : S1x64x128x256.Idx) :
    ∃ pc ∈ ([⟨r0_4, p0⟩] : List (View.Piece (Elt F) S1x64x128x256 .f32)), y ∈ pc.1.set :=
  View.cover_of_tiled [⟨r0_4, p0⟩] S1x64x128x256.size (by rfl) y

/-! ## The body's triple -/

set_option maxHeartbeats 1000000 in
/-- The body on whole staging memrefs, the inputs' at read contents `xW` and the result's at anything, leaves the
    inputs' as they were and the result's at `out0_4` of the inputs'. -/
theorem sound_kernel (c : Dev nD) (E : Set ℕ) (i : grid0.Coords)
    (arg3 : Memref sig .tc .vmem S1x64x256 .bf16) (harg3 : arg3.IsWhole) (arg4 : Memref sig .tc .vmem S1x128x256 .bf16) (harg4 : arg4.IsWhole)
    (arg5 : Memref sig .tc .vmem S256x512 .bf16) (harg5 : arg5.IsWhole) (arg6 : Memref sig .tc .vmem S1x256 .f32) (harg6 : arg6.IsWhole)
    (arg7 : Memref sig .tc .vmem S1x64x128x256 .f32) (harg7 : arg7.IsWhole)
    (x0 : Vec F S1x64x256 .bf16) (x1 : Vec F S1x128x256 .bf16) (x2 : Vec F S256x512 .bf16) (x3 : Vec F S1x256 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (out0_4 x0 x1 x2 x3)) -∗ K ⟨⟩))
      ⊢ wp frame (wpE (defs₀ (F := F)) Variants.none c none) E (cc0__fused_kernel i arg3 harg3 arg4 harg4 arg5 harg5 arg6 harg6 arg7 harg7) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the one pipeline: the arrays as the region finds them; after the body at point `t` each input's
    buffer at its block and the result's at `out0_4` of the input blocks; the invariant the scoped rest, untouched;
    nothing owed. The two input windows on the bf16 copy of `x` hold the left and the right half of its share; every
    other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

/-- Each input's current staging buffer holds its block at every point, fetched there or not: an unfetched window's
    block index has not moved, and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The arrays at entry: one array's share dealt between the two windows on it -/

/-- The four distinct buffers behind the five windows' arrays, each whole at the region-entry contents, are the windows'
    holdings: the bf16 copy of `x` split into its two half shares, one for each window that reads it. -/
theorem hsplit (c : Dev nD) :
    (Pipeline.arrBufs spec0 c (V m c) : sProp 𝕄) ⊢ (dats m 0 c).arrays ((dats m 0 c).arrAt · 0) := by
  have harrays : (dats m 0 c).arrays ((dats m 0 c).arrAt · 0)
      = bigSep Finset.univ fun w : Fin cfg0.W => (((c : Thread nD τ).loc (Pipeline.arrRef spec0 w)) ↦{(dats m 0 c).share w} (dats m 0 c).arrAt w 0 : sProp 𝕄) := by
    unfold Dat.arrays
    exact bigSep_congr fun w _ => by rw [(arr_whole0 w).set_eq_univ]
  rw [harrays, bigSep_W0]
  unfold Pipeline.arrBufs
  rw [bigSep_eq_bigSepL_of_eq [main_v5, main_v6, main_v7, main_v8] (by decide) (by decide)]
  show iprop((((c : Thread nD τ).loc main_v5) ↦{fullShare} V m c main_v5) ∗ (((c : Thread nD τ).loc main_v6) ↦{fullShare} V m c main_v6)
        ∗ (((c : Thread nD τ).loc main_v7) ↦{fullShare} V m c main_v7) ∗ (((c : Thread nD τ).loc main_v8) ↦{fullShare} V m c main_v8))
      ⊢ (iprop((((c : Thread nD τ).loc main_v5) ↦{fullShare.left} V m c main_v5) ∗ (((c : Thread nD τ).loc main_v5) ↦{fullShare.right} V m c main_v5)
        ∗ (((c : Thread nD τ).loc main_v6) ↦{fullShare} V m c main_v6)
        ∗ (((c : Thread nD τ).loc main_v7) ↦{fullShare} V m c main_v7) ∗ (((c : Thread nD τ).loc main_v8) ↦{fullShare} V m c main_v8)) : sProp 𝕄)
  iintro ⟨H5, H6, H7, H8⟩
  ihave H5' := (pointsTo_share (PosShare.mem_left_op_right fullShare)).1 $$ [H5]
  · iexact H5
  icases H5' with ⟨Hl, Hr⟩
  isplitl [Hl]; · iexact Hl
  isplitl [Hr]; · iexact Hr
  isplitl [H6]; · iexact H6
  isplitl [H7]; · iexact H7
  iexact H8

/-! ## The run and the frame -/

set_option backward.isDefEq.respectTransparency.types false in
/-- Every weakly fair execution of the program terminates, nothing faulting, with every array of the pipeline at what the
    write-backs leave and every other unscoped buffer as the region found it. -/
theorem run_main : θ_run defs (onTc (τ := τ) (main (F := F))) (s₀ m ρ) (Pipeline.FramePost cfgs (dats m) 0 (V m)) :=
  Cert.Lib.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := fun _ => .rfl) (hout := fun _ => .rfl)

/-- The three argument arrays are no window's array and no host operation writes them: they end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c)⟩) (run_main m ρ)

end Cert.Kernel.Fr

end
-- ==== Proof.KIFrame.lean ====
/-
  The frame of the pairwise-projection program and what its result array holds after the run.

  The program's one kernel region runs over a 4 × 4 × 2 grid. At the point (b, i, j) it is handed a 64-row block
  of the bf16 copy of `x` (rows 64·i … of batch b), a 128-row block of THE SAME ARRAY (rows 128·j … of batch b),
  the whole transposed weight matrix, the bias row, and writes one 64 × 128 × 256 block of the result. The two
  input windows on one array only read it, so each holds half of the array's share for the whole run; the weights
  and the bias are fetched once and found again at every later point; the result's block is written back at every
  point. What the body leaves in the result's buffer is one store of one pure value of its five loads, so the
  buffer after the body is that value, and each input buffer is left as found.
-/
import proofs.«116326_j55379308314761_2_alg».proof.Proof.Gen.KernelIdeal.Launch
import proofs.«116326_j55379308314761_2_alg».proof.Proof.Gen.KernelIdeal.Skeleton
import proofs.«116326_j55379308314761_2_alg».proof.Proof.Gen.KernelIdeal.Points
import proofs.«116326_j55379308314761_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The TensorCore's buffers when the region is entered: the launch contents after the eight host operations
    (the two slices of the weights, their transposes, the concatenation, the two changes of format, the reshape
    of the bias). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is those host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev r0_0 : Rect S1x64x256 := Rect.unit (s := S1x64x256) ![0, 0, 0] S1x64x256.size inb_S1x64x256_S1x64x256_0_0_0
abbrev r0_1 : Rect S1x128x256 := Rect.unit (s := S1x128x256) ![0, 0, 0] S1x128x256.size inb_S1x128x256_S1x128x256_0_0_0
abbrev r0_2a : Rect S256x512 := Rect.unit (s := S256x512) ![0, 0] S256x256.size inb_S256x512_S256x256_0_0
abbrev r0_2b : Rect S256x512 := Rect.unit (s := S256x512) ![0, 256] S256x256.size inb_S256x512_S256x256_0_256
abbrev r0_3 : Rect S1x256 := Rect.unit (s := S1x256) ![0, 0] S1x256.size inb_S1x256_S1x256_0_0
abbrev r0_4 : Rect S1x64x128x256 := Rect.unit (s := S1x64x128x256) ![0, 0, 0, 0] S1x64x128x256.size inb_S1x64x128x256_S1x64x128x256_0_0_0_0

/-- The result window's buffer after the body, from the four input buffers' contents: its one store. -/
def out0_4 (x0 : Vec F S1x64x256 .bf16) (x1 : Vec F S1x128x256 .bf16) (x2 : Vec F S256x512 .bf16) (x3 : Vec F S1x256 .f32) : Vec F S1x64x128x256 .f32 :=
  View.canon [⟨r0_4, k0_pay1 (View.ld x0 r0_0) (View.ld x1 r0_1) (View.ld x2 r0_2a) (View.ld x2 r0_2b) (View.ld x3 r0_3)⟩]

/-- That store is the whole buffer. -/
theorem cover0_4 (p0 : Vec F S1x64x128x256 .f32) (y : S1x64x128x256.Idx) :
    ∃ pc ∈ ([⟨r0_4, p0⟩] : List (View.Piece (Elt F) S1x64x128x256 .f32)), y ∈ pc.1.set :=
  View.cover_of_tiled [⟨r0_4, p0⟩] S1x64x128x256.size (by rfl) y

/-! ## The body's triple -/

set_option maxHeartbeats 1000000 in
/-- The body on whole staging memrefs, the inputs' at read contents `xW` and the result's at anything, leaves the
    inputs' as they were and the result's at `out0_4` of the inputs'. -/
theorem sound_kernel (c : Dev nD) (E : Set ℕ) (i : grid0.Coords)
    (arg3 : Memref sig .tc .vmem S1x64x256 .bf16) (harg3 : arg3.IsWhole) (arg4 : Memref sig .tc .vmem S1x128x256 .bf16) (harg4 : arg4.IsWhole)
    (arg5 : Memref sig .tc .vmem S256x512 .bf16) (harg5 : arg5.IsWhole) (arg6 : Memref sig .tc .vmem S1x256 .f32) (harg6 : arg6.IsWhole)
    (arg7 : Memref sig .tc .vmem S1x64x128x256 .f32) (harg7 : arg7.IsWhole)
    (x0 : Vec F S1x64x256 .bf16) (x1 : Vec F S1x128x256 .bf16) (x2 : Vec F S256x512 .bf16) (x3 : Vec F S1x256 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (out0_4 x0 x1 x2 x3)) -∗ K ⟨⟩))
      ⊢ wp frame (wpE (defs₀ (F := F)) Variants.none c none) E (cc0__fused_kernel i arg3 harg3 arg4 harg4 arg5 harg5 arg6 harg6 arg7 harg7) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the one pipeline: the arrays as the region finds them; after the body at point `t` each input's
    buffer at its block and the result's at `out0_4` of the input blocks; the invariant the scoped rest, untouched;
    nothing owed. The two input windows on the bf16 copy of `x` hold the left and the right half of its share; every
    other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

/-- Each input's current staging buffer holds its block at every point, fetched there or not: an unfetched window's
    block index has not moved, and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The arrays at entry: one array's share dealt between the two windows on it -/

/-- The four distinct buffers behind the five windows' arrays, each whole at the region-entry contents, are the windows'
    holdings: the bf16 copy of `x` split into its two half shares, one for each window that reads it. -/
theorem hsplit (c : Dev nD) :
    (Pipeline.arrBufs spec0 c (V m c) : sProp 𝕄) ⊢ (dats m 0 c).arrays ((dats m 0 c).arrAt · 0) := by
  have harrays : (dats m 0 c).arrays ((dats m 0 c).arrAt · 0)
      = bigSep Finset.univ fun w : Fin cfg0.W => (((c : Thread nD τ).loc (Pipeline.arrRef spec0 w)) ↦{(dats m 0 c).share w} (dats m 0 c).arrAt w 0 : sProp 𝕄) := by
    unfold Dat.arrays
    exact bigSep_congr fun w _ => by rw [(arr_whole0 w).set_eq_univ]
  rw [harrays, bigSep_W0]
  unfold Pipeline.arrBufs
  rw [bigSep_eq_bigSepL_of_eq [main_v5, main_v6, main_v7, main_v8] (by decide) (by decide)]
  show iprop((((c : Thread nD τ).loc main_v5) ↦{fullShare} V m c main_v5) ∗ (((c : Thread nD τ).loc main_v6) ↦{fullShare} V m c main_v6)
        ∗ (((c : Thread nD τ).loc main_v7) ↦{fullShare} V m c main_v7) ∗ (((c : Thread nD τ).loc main_v8) ↦{fullShare} V m c main_v8))
      ⊢ (iprop((((c : Thread nD τ).loc main_v5) ↦{fullShare.left} V m c main_v5) ∗ (((c : Thread nD τ).loc main_v5) ↦{fullShare.right} V m c main_v5)
        ∗ (((c : Thread nD τ).loc main_v6) ↦{fullShare} V m c main_v6)
        ∗ (((c : Thread nD τ).loc main_v7) ↦{fullShare} V m c main_v7) ∗ (((c : Thread nD τ).loc main_v8) ↦{fullShare} V m c main_v8)) : sProp 𝕄)
  iintro ⟨H5, H6, H7, H8⟩
  ihave H5' := (pointsTo_share (PosShare.mem_left_op_right fullShare)).1 $$ [H5]
  · iexact H5
  icases H5' with ⟨Hl, Hr⟩
  isplitl [Hl]; · iexact Hl
  isplitl [Hr]; · iexact Hr
  isplitl [H6]; · iexact H6
  isplitl [H7]; · iexact H7
  iexact H8

/-! ## The run and the frame -/

set_option backward.isDefEq.respectTransparency.types false in
/-- Every weakly fair execution of the program terminates, nothing faulting, with every array of the pipeline at what the
    write-backs leave and every other unscoped buffer as the region found it. -/
theorem run_main : θ_run defs (onTc (τ := τ) (main (F := F))) (s₀ m ρ) (Pipeline.FramePost cfgs (dats m) 0 (V m)) :=
  Cert.Lib.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := fun _ => .rfl) (hout := fun _ => .rfl)

/-- The three argument arrays are no window's array and no host operation writes them: they end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c)⟩) (run_main m ρ)

end Cert.KernelIdeal.Fr

end
-- ==== Proof.PayAt.lean ====
/-
  The kernel body's arithmetic at one index.

  The body reads a 64-row block and a 128-row block of the activations, the left and right 256×256 halves of the
  transposed weights, and the bias as a row; it stores ONE value, of shape [1, 64, 128, 256]. At `(0, p, q, f)` that
  value is

      (Σ_e a[0,p,e] · L[e,f])  +  (Σ_e b[0,q,e] · R[e,f])  +  bias[0,f]

  on the extended reals: a matrix product into a zero accumulator is the plain sum of products over the contraction
  axis; every shape cast here is between shapes with the same row-major numbering (a unit axis added or dropped), so it
  reads the same flat position; each broadcast reads coordinate `0` on the operand's unit axes; the two additions are
  pointwise, in the order written.
-/
import proofs.«116326_j55379308314761_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-! ## Layout operations at explicit coordinates -/

section Layout
variable {α : Type}

/-- An `[a, b]` array cast to `[a, 1, b]` reads, at `(i, u, j)`, the operand at `(i, j)`: a unit axis in the middle
    does not move the row-major position. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, c]` array broadcast to `[a, b, c]` reads, at `(p, q, f)`, the operand at `(p, 0, f)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (f : Fin c) :
    broadcastTo ⟨3, ![a, b, c]⟩ v h (ix3 p q f) = v (ix3 p (0 : Fin 1) f) := by
  refine broadcastTo_apply v h (ix3 p q f) (ix3 p (0 : Fin 1) f) fun ax => ?_
  match ax with
  | ⟨0, _⟩ =>
    show p.val = if a = 1 then 0 else p.val
    split
    · have := p.isLt; omega
    · rfl
  | ⟨1, _⟩ => rfl
  | ⟨2, _⟩ =>
    show f.val = if c = 1 then 0 else f.val
    split
    · have := f.isLt; omega
    · rfl

/-- A `[1, b, c]` array broadcast to `[a, b, c]` reads, at `(p, q, f)`, the operand at `(0, q, f)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (f : Fin c) :
    broadcastTo ⟨3, ![a, b, c]⟩ v h (ix3 p q f) = v (ix3 (0 : Fin 1) q f) := by
  refine broadcastTo_apply v h (ix3 p q f) (ix3 (0 : Fin 1) q f) fun ax => ?_
  match ax with
  | ⟨0, _⟩ => rfl
  | ⟨1, _⟩ =>
    show q.val = if b = 1 then 0 else q.val
    split
    · have := q.isLt; omega
    · rfl
  | ⟨2, _⟩ =>
    show f.val = if c = 1 then 0 else f.val
    split
    · have := f.isLt; omega
    · rfl

/-- A `[1, 1, c]` array broadcast to `[a, b, c]` reads, at `(p, q, f)`, the operand at `(0, 0, f)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (f : Fin c) :
    broadcastTo ⟨3, ![a, b, c]⟩ v h (ix3 p q f) = v (ix3 (0 : Fin 1) (0 : Fin 1) f) := by
  refine broadcastTo_apply v h (ix3 p q f) (ix3 (0 : Fin 1) (0 : Fin 1) f) fun ax => ?_
  match ax with
  | ⟨0, _⟩ => rfl
  | ⟨1, _⟩ => rfl
  | ⟨2, _⟩ =>
    show f.val = if c = 1 then 0 else f.val
    split
    · have := f.isLt; omega
    · rfl

end Layout

/-! ## The two matrix products at an index

Both contract the left operand's columns with the right operand's rows (one contracting axis each, no batch axis), so
the sum over the contraction shape's index is the sum over `e : Fin 256` once that index is identified with its one
coordinate. -/

/-- The left operand's index at output `i` and contraction position `k` keeps the output's row. -/
theorem lhs64_row (i : S64x256.Idx) (k : dot_S64x256_S256x256_S64x256_1_0_0_1_n_n.contr.Idx) :
    (dot_S64x256_S256x256_S64x256_1_0_0_1_n_n.lhsIdx i k 0).val = (i 0).val := by
  unfold DotDims.lhsIdx
  rw [dif_neg (show ¬(0 : Fin S64x256.rank) ∈ dot_S64x256_S256x256_S64x256_1_0_0_1_n_n.lhsBatch by decide),
    dif_pos (show (0 : Fin S64x256.rank) ∈ dot_S64x256_S256x256_S64x256_1_0_0_1_n_n.lhsNonContracting by decide)]
  rfl

/-- Its column is the contraction position. -/
theorem lhs64_col (i : S64x256.Idx) (k : dot_S64x256_S256x256_S64x256_1_0_0_1_n_n.contr.Idx) :
    (dot_S64x256_S256x256_S64x256_1_0_0_1_n_n.lhsIdx i k 1).val = (k ⟨0, by decide⟩).val :=
  dot_S64x256_S256x256_S64x256_1_0_0_1_n_n.lhsIdx_val_of_single rfl i k

/-- The right operand's row is the contraction position. -/
theorem rhs64_row (i : S64x256.Idx) (k : dot_S64x256_S256x256_S64x256_1_0_0_1_n_n.contr.Idx) :
    (dot_S64x256_S256x256_S64x256_1_0_0_1_n_n.rhsIdx i k 0).val = (k ⟨0, by decide⟩).val :=
  dot_S64x256_S256x256_S64x256_1_0_0_1_n_n.rhsIdx_val_of_single rfl i k

/-- Its column is the output's column. -/
theorem rhs64_col (i : S64x256.Idx) (k : dot_S64x256_S256x256_S64x256_1_0_0_1_n_n.contr.Idx) :
    (dot_S64x256_S256x256_S64x256_1_0_0_1_n_n.rhsIdx i k 1).val = (i 1).val := by
  unfold DotDims.rhsIdx
  rw [dif_neg (show ¬(1 : Fin S256x256.rank) ∈ dot_S64x256_S256x256_S64x256_1_0_0_1_n_n.rhsBatch by decide),
    dif_pos (show (1 : Fin S256x256.rank) ∈ dot_S64x256_S256x256_S64x256_1_0_0_1_n_n.rhsNonContracting by decide)]
  rfl

/-- The product of a 64-row block by a 256×256 matrix into a zero accumulator, at row `p` and column `f`:
    `∑ e, l[p, e] · r[e, f]` over the 256 contraction positions. -/
theorem matmul64_apply (l : FVec Ideal S64x256 .bf16) (r : FVec Ideal S256x256 .bf16) (p : Fin 64) (f : Fin 256) :
    matmul dot_S64x256_S256x256_S64x256_1_0_0_1_n_n none l r (constant S64x256 .f32 0x00000000#32) (ix2 p f)
      = ∑ e : Fin 256, l (ix2 p e) * r (ix2 e f) := by
  show FloatOps.matmul dot_S64x256_S256x256_S64x256_1_0_0_1_n_n none l r (constant S64x256 .f32 0x00000000#32) (ix2 p f) = _
  rw [Ideal.matmul_constant_zero_apply,
    ← Equiv.sum_comp (contrEquiv1 dot_S64x256_S256x256_S64x256_1_0_0_1_n_n 256 rfl rfl).symm]
  refine Finset.sum_congr rfl fun e _ => ?_
  have he := contrEquiv1_symm_val dot_S64x256_S256x256_S64x256_1_0_0_1_n_n 256 rfl rfl e
  have el : dot_S64x256_S256x256_S64x256_1_0_0_1_n_n.lhsIdx (ix2 p f)
      ((contrEquiv1 dot_S64x256_S256x256_S64x256_1_0_0_1_n_n 256 rfl rfl).symm e) = ix2 p e := funext fun a => Fin.ext (by
    match a with
    | ⟨0, _⟩ => exact lhs64_row _ _
    | ⟨1, _⟩ => exact (lhs64_col _ _).trans he)
  have er : dot_S64x256_S256x256_S64x256_1_0_0_1_n_n.rhsIdx (ix2 p f)
      ((contrEquiv1 dot_S64x256_S256x256_S64x256_1_0_0_1_n_n 256 rfl rfl).symm e) = ix2 e f := funext fun a => Fin.ext (by
    match a with
    | ⟨0, _⟩ => exact (rhs64_row _ _).trans he
    | ⟨1, _⟩ => exact rhs64_col _ _)
  rw [el, er]

/-- The left operand's index at output `i` and contraction position `k` keeps the output's row. -/
theorem lhs128_row (i : S128x256.Idx) (k : dot_S128x256_S256x256_S128x256_1_0_0_1_n_n.contr.Idx) :
    (dot_S128x256_S256x256_S128x256_1_0_0_1_n_n.lhsIdx i k 0).val = (i 0).val := by
  unfold DotDims.lhsIdx
  rw [dif_neg (show ¬(0 : Fin S128x256.rank) ∈ dot_S128x256_S256x256_S128x256_1_0_0_1_n_n.lhsBatch by decide),
    dif_pos (show (0 : Fin S128x256.rank) ∈ dot_S128x256_S256x256_S128x256_1_0_0_1_n_n.lhsNonContracting by decide)]
  rfl

/-- Its column is the contraction position. -/
theorem lhs128_col (i : S128x256.Idx) (k : dot_S128x256_S256x256_S128x256_1_0_0_1_n_n.contr.Idx) :
    (dot_S128x256_S256x256_S128x256_1_0_0_1_n_n.lhsIdx i k 1).val = (k ⟨0, by decide⟩).val :=
  dot_S128x256_S256x256_S128x256_1_0_0_1_n_n.lhsIdx_val_of_single rfl i k

/-- The right operand's row is the contraction position. -/
theorem rhs128_row (i : S128x256.Idx) (k : dot_S128x256_S256x256_S128x256_1_0_0_1_n_n.contr.Idx) :
    (dot_S128x256_S256x256_S128x256_1_0_0_1_n_n.rhsIdx i k 0).val = (k ⟨0, by decide⟩).val :=
  dot_S128x256_S256x256_S128x256_1_0_0_1_n_n.rhsIdx_val_of_single rfl i k

/-- Its column is the output's column. -/
theorem rhs128_col (i : S128x256.Idx) (k : dot_S128x256_S256x256_S128x256_1_0_0_1_n_n.contr.Idx) :
    (dot_S128x256_S256x256_S128x256_1_0_0_1_n_n.rhsIdx i k 1).val = (i 1).val := by
  unfold DotDims.rhsIdx
  rw [dif_neg (show ¬(1 : Fin S256x256.rank) ∈ dot_S128x256_S256x256_S128x256_1_0_0_1_n_n.rhsBatch by decide),
    dif_pos (show (1 : Fin S256x256.rank) ∈ dot_S128x256_S256x256_S128x256_1_0_0_1_n_n.rhsNonContracting by decide)]
  rfl

/-- The product of a 128-row block by a 256×256 matrix into a zero accumulator, at row `p` and column `f`:
    `∑ e, l[p, e] · r[e, f]` over the 256 contraction positions. -/
theorem matmul128_apply (l : FVec Ideal S128x256 .bf16) (r : FVec Ideal S256x256 .bf16) (p : Fin 128) (f : Fin 256) :
    matmul dot_S128x256_S256x256_S128x256_1_0_0_1_n_n none l r (constant S128x256 .f32 0x00000000#32) (ix2 p f)
      = ∑ e : Fin 256, l (ix2 p e) * r (ix2 e f) := by
  show FloatOps.matmul dot_S128x256_S256x256_S128x256_1_0_0_1_n_n none l r (constant S128x256 .f32 0x00000000#32) (ix2 p f) = _
  rw [Ideal.matmul_constant_zero_apply,
    ← Equiv.sum_comp (contrEquiv1 dot_S128x256_S256x256_S128x256_1_0_0_1_n_n 256 rfl rfl).symm]
  refine Finset.sum_congr rfl fun e _ => ?_
  have he := contrEquiv1_symm_val dot_S128x256_S256x256_S128x256_1_0_0_1_n_n 256 rfl rfl e
  have el : dot_S128x256_S256x256_S128x256_1_0_0_1_n_n.lhsIdx (ix2 p f)
      ((contrEquiv1 dot_S128x256_S256x256_S128x256_1_0_0_1_n_n 256 rfl rfl).symm e) = ix2 p e := funext fun a => Fin.ext (by
    match a with
    | ⟨0, _⟩ => exact lhs128_row _ _
    | ⟨1, _⟩ => exact (lhs128_col _ _).trans he)
  have er : dot_S128x256_S256x256_S128x256_1_0_0_1_n_n.rhsIdx (ix2 p f)
      ((contrEquiv1 dot_S128x256_S256x256_S128x256_1_0_0_1_n_n 256 rfl rfl).symm e) = ix2 e f := funext fun a => Fin.ext (by
    match a with
    | ⟨0, _⟩ => exact (rhs128_row _ _).trans he
    | ⟨1, _⟩ => exact rhs128_col _ _)
  rw [el, er]

/-! ## The stored value at an index -/

/-- The body's stored value at `(0, p, q, f)`: row `p` of the 64-row block times the left weight half, plus row `q` of the
    128-row block times the right weight half, plus the bias at `f`. The casts between shapes of equal row-major
    numbering and the three broadcasts only re-address; the two products are the sums over the 256 contraction
    positions; the additions are pointwise, the two sums first and the bias last. -/
theorem pay_at (v0 : Vec Ideal S1x64x256 .bf16) (v2 : Vec Ideal S1x128x256 .bf16) (v4 v6 : Vec Ideal S256x256 .bf16)
    (v10 : Vec Ideal S1x256 .f32) (p : Fin 64) (q : Fin 128) (f : Fin 256) :
    Gen.k0_pay1 (F := Ideal) v0 v2 v4 v6 v10 (ix4 (0 : Fin 1) p q f)
      = ((∑ e : Fin 256, v0 (ix3 (0 : Fin 1) p e) * v4 (ix2 e f))
          + (∑ e : Fin 256, v2 (ix3 (0 : Fin 1) q e) * v6 (ix2 e f))) + v10 (ix2 (0 : Fin 1) f) := by
  unfold Gen.k0_pay1
  refine (shapeCast_abc_1abc_apply _ shapeCasts_S64x128x256_S1x64x128x256 (0 : Fin 1) p q f).trans ?_
  refine (addf_apply _ _ _).trans ?_
  refine congrArg₂ (· + ·) ((addf_apply _ _ _).trans (congrArg₂ (· + ·) ?_ ?_)) ?_
  · -- the 64-row block's product, broadcast along the second axis
    refine (broadcastTo_a1c_abc_apply _ broadcasts_S64x1x256_S64x128x256 p q f).trans ?_
    refine (shapeCast_ab_a1b_apply _ shapeCasts_S64x256_S64x1x256 p (0 : Fin 1) f).trans ?_
    refine (matmul64_apply _ _ p f).trans ?_
    refine Finset.sum_congr rfl fun e _ => ?_
    exact congrArg₂ (· * ·) (shapeCast_1ab_ab_apply v0 shapeCasts_S1x64x256_S64x256 p e)
      (congrFun (shapeCast_self v4 shapeCasts_S256x256_S256x256) (ix2 e f))
  · -- the 128-row block's product, broadcast along the first axis
    refine (broadcastTo_1bc_abc_apply _ broadcasts_S1x128x256_S64x128x256 p q f).trans ?_
    refine (shapeCast_ab_1ab_apply _ shapeCasts_S128x256_S1x128x256 (0 : Fin 1) q f).trans ?_
    refine (matmul128_apply _ _ q f).trans ?_
    refine Finset.sum_congr rfl fun e _ => ?_
    exact congrArg₂ (· * ·) (shapeCast_1ab_ab_apply v2 shapeCasts_S1x128x256_S128x256 q e)
      (congrFun (shapeCast_self v6 shapeCasts_S256x256_S256x256) (ix2 e f))
  · -- the bias row, broadcast along both leading axes
    refine (broadcastTo_11c_abc_apply _ broadcasts_S1x1x256_S64x128x256 p q f).trans ?_
    refine (shapeCast_ab_1ab_apply _ shapeCasts_S1x256_S1x1x256 (0 : Fin 1) (0 : Fin 1) f).trans ?_
    exact congrFun (shapeCast_self v10 shapeCasts_S1x256_S1x256) (ix2 (0 : Fin 1) f)

end Cert.KernelIdeal.PayValue

end
-- ==== Proof.Spec.lean ====
/-
  The function both programs compute, stated once over the argument arrays.

  For a batch `b`, two sequence positions `i`, `j` and an output feature `f`, the result is

      (Σ_e x[b,i,e] · W[f,e])  +  (Σ_e x[b,j,e] · W[f,256+e])  +  bias[f]

  on the extended reals: the first sum applies the left half of the weight matrix to row `i`, the second the
  right half to row `j` — together the linear map of the concatenated pair `[x_i, x_j]` — and the bias is added
  last. The two sums are added first and the bias after, in both programs, so no re-association is needed.
-/
import Idealize.ShloMosaic.PureOps.Ideal
import Idealize.ShloMosaic.Lib.ValueIdx

noncomputable section

open scoped BigOperators

namespace Cert.Spec

open Idealize.ShloMosaic Idealize.ShloMosaic.ValueIdx

/-- Column `e` of the LEFT half of the weight matrix's row `f`. -/
abbrev colL (e : Fin 256) : Fin 512 := ⟨e.val, by omega⟩
/-- Column `e` of the RIGHT half of the weight matrix's row `f`. -/
abbrev colR (e : Fin 256) : Fin 512 := ⟨256 + e.val, by omega⟩

/-- The projection of row `s` of batch `b` by the left half of the weights, at feature `f`. -/
def projL (x : FVec Ideal ⟨3, ![4, 256, 256]⟩ .f32) (W : FVec Ideal ⟨2, ![256, 512]⟩ .f32)
    (b : Fin 4) (s f : Fin 256) : EReal :=
  ∑ e : Fin 256, x (ix3 b s e) * W (ix2 f (colL e))

/-- The projection of row `s` of batch `b` by the right half of the weights, at feature `f`. -/
def projR (x : FVec Ideal ⟨3, ![4, 256, 256]⟩ .f32) (W : FVec Ideal ⟨2, ![256, 512]⟩ .f32)
    (b : Fin 4) (s f : Fin 256) : EReal :=
  ∑ e : Fin 256, x (ix3 b s e) * W (ix2 f (colR e))

/-- The pairwise result at explicit coordinates. -/
def pairAt (x : FVec Ideal ⟨3, ![4, 256, 256]⟩ .f32) (W : FVec Ideal ⟨2, ![256, 512]⟩ .f32)
    (bias : FVec Ideal ⟨1, ![256]⟩ .f32) (b : Fin 4) (i j f : Fin 256) : EReal :=
  (projL x W b i f + projR x W b j f) + bias (ix1 f)

/-- The pairwise result as one whole-array function of the three argument arrays. -/
def pair (x : FVec Ideal ⟨3, ![4, 256, 256]⟩ .f32) (W : FVec Ideal ⟨2, ![256, 512]⟩ .f32)
    (bias : FVec Ideal ⟨1, ![256]⟩ .f32) : FVec Ideal ⟨4, ![4, 256, 256, 256]⟩ .f32 :=
  fun o => pairAt x W bias (o 0) (o 1) (o 2) (o 3)

theorem pair_ix4 (x : FVec Ideal ⟨3, ![4, 256, 256]⟩ .f32) (W : FVec Ideal ⟨2, ![256, 512]⟩ .f32)
    (bias : FVec Ideal ⟨1, ![256]⟩ .f32) (b : Fin 4) (i j f : Fin 256) :
    pair x W bias (ix4 b i j f) = pairAt x W bias b i j f := rfl

end Cert.Spec

end
-- ==== Proof.HostRead.lean ====
/-
  The host operations before the region, read at an index.

  The weight matrix `W` (256 × 512) is cut into its left and right 256 × 256 halves, each half is transposed, and
  the two transposes are laid side by side: entry (e, f) of the result is `W[f, e]` when `f` is in the left half and
  entry (e, 256 + f) is `W[f, 256 + e]`. The bias (256) is reshaped into a 1 × 256 row: entry (0, f) is `bias[f]`.
-/
import proofs.«116326_j55379308314761_2_alg».proof.Proof.Gen.KernelIdeal
import proofs.«116326_j55379308314761_2_alg».proof.Proof.Spec
import Idealize.ShloMosaic.Lib.ValueIdx
import Idealize.ShloMosaic.Lib.Pipeline.Value

noncomputable section

namespace Cert.KernelIdeal.HostRead

open Cert.KernelIdeal Cert.Spec
open Idealize.ShloMosaic Idealize.ShloMosaic.ValueIdx

variable {α : Type}

/-- The two transposed halves side by side. -/
abbrev wt (W : S256x512.Idx → α) (hs0 : S256x512.Slices ![0, 0] S256x256) (hs1 : S256x512.Slices ![0, 256] S256x256)
    (ht : S256x256.Transposes [1, 0] S256x256) (hc : Shape.Concatenates [S256x256, S256x256] S256x512 1) : S256x512.Idx → α :=
  concatenate S256x512 1 [⟨S256x256, transpose S256x256 [1, 0] (extractStridedSlice S256x256 ![0, 0] W hs0) ht⟩,
    ⟨S256x256, transpose S256x256 [1, 0] (extractStridedSlice S256x256 ![0, 256] W hs1) ht⟩] hc

/-- Entry (e, f) of the left half of the transposed weights is `W[f, e]`. -/
theorem wt_left (W : S256x512.Idx → α) (hs0 : S256x512.Slices ![0, 0] S256x256) (hs1 : S256x512.Slices ![0, 256] S256x256)
    (ht : S256x256.Transposes [1, 0] S256x256) (hc : Shape.Concatenates [S256x256, S256x256] S256x512 1) (e f : Fin 256) :
    wt W hs0 hs1 ht hc (ix2 e (colL f)) = W (ix2 f (colL e)) := by
  refine (concatenate_pair_apply_left (t := S256x512) (s₁ := S256x256) (s₂ := S256x256) (1 : Fin 2) _ _ hc (ix2 e (colL f)) rfl (ix2 e f)
    (fun b => by match b with | ⟨0, _⟩ => rfl | ⟨1, _⟩ => rfl)).trans ?_
  refine (transpose_apply (s := S256x256) (t := S256x256) [1, 0] _ ht (ix2 e f) (ix2 f e)
    (fun b => by match b with | ⟨0, _⟩ => rfl | ⟨1, _⟩ => rfl)).trans ?_
  exact extractStridedSlice_apply (s := S256x512) (t := S256x256) ![0, 0] W hs0 (ix2 f e) (ix2 f (colL e))
    (fun a => by
      match a with
      | ⟨0, _⟩ => show f.val = 0 + f.val; omega
      | ⟨1, _⟩ => show e.val = 0 + e.val; omega)

/-- Entry (e, 256 + f) of the transposed weights is `W[f, 256 + e]`. -/
theorem wt_right (W : S256x512.Idx → α) (hs0 : S256x512.Slices ![0, 0] S256x256) (hs1 : S256x512.Slices ![0, 256] S256x256)
    (ht : S256x256.Transposes [1, 0] S256x256) (hc : Shape.Concatenates [S256x256, S256x256] S256x512 1) (e f : Fin 256) :
    wt W hs0 hs1 ht hc (ix2 e (colR f)) = W (ix2 f (colR e)) := by
  refine (concatenate_pair_apply_right (t := S256x512) (s₁ := S256x256) (s₂ := S256x256) (1 : Fin 2) _ _ hc (ix2 e (colR f)) rfl rfl (ix2 e f)
    (fun b hb => by
      match b with
      | ⟨0, _⟩ => rfl
      | ⟨1, _⟩ => exact absurd rfl hb)
    (by show f.val + 256 = 256 + f.val; omega)).trans ?_
  refine (transpose_apply (s := S256x256) (t := S256x256) [1, 0] _ ht (ix2 e f) (ix2 f e)
    (fun b => by match b with | ⟨0, _⟩ => rfl | ⟨1, _⟩ => rfl)).trans ?_
  exact extractStridedSlice_apply (s := S256x512) (t := S256x256) ![0, 256] W hs1 (ix2 f e) (ix2 f (colR e))
    (fun a => by
      match a with
      | ⟨0, _⟩ => show f.val = 0 + f.val; omega
      | ⟨1, _⟩ => show 256 + e.val = 256 + e.val; omega)

/-- Entry (0, f) of the bias reshaped into a row is `bias[f]`. -/
theorem bias_row (b : S256.Idx → α) (h : S256.ShapeCasts S1x256) (f : Fin 256) :
    shapeCast S1x256 b h (ix2 (0 : Fin 1) f) = b (ix1 f) := by
  refine shapeCast_apply (s := S256) (t := S1x256) b h (ix2 (0 : Fin 1) f) (ix1 f) ?_
  rw [Shape.rowMajor_val_one, Shape.rowMajor_val_two]
  show f.val = (0 : Fin 1).val * 256 + f.val
  simp

end Cert.KernelIdeal.HostRead

end
-- ==== Proof.KIValue.lean ====
/-
  What the result array holds after the run, at the exact reals.

  At the grid point (b, i, j) the body is handed rows 64·i … 64·i + 63 of batch b of `x`, rows 128·j … 128·j + 127 of
  the same batch, the transposed weights and the bias row, and the block it writes back holds, at (p, q, f),

      Σ_e x[b, 64·i + p, e] · W[f, e]  +  Σ_e x[b, 128·j + q, e] · W[f, 256 + e]  +  bias[f],

  which is the pairwise result at (b, 64·i + p, 128·j + q, f): the block of the whole-array function that the point's
  rectangle cuts out. The 32 blocks tile the result array, so after the last write-back the array is that function.
-/
import proofs.«116326_j55379308314761_2_alg».proof.Proof.KIFrame
import proofs.«116326_j55379308314761_2_alg».proof.Proof.PayAt
import proofs.«116326_j55379308314761_2_alg».proof.Proof.HostRead
import proofs.«116326_j55379308314761_2_alg».proof.Proof.Spec
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

open scoped BigOperators

namespace Cert.KernelIdeal.Val

open Cert.KernelIdeal Cert.KernelIdeal.Gen Cert.KernelIdeal.Fr Cert.Spec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-! ## The result buffer after the body, at explicit coordinates -/

/-- The left 256 columns of the weights' buffer, read through the body's first rectangle on it. -/
theorem ld_left (x2 : Vec Ideal S256x512 .bf16) (e f : Fin 256) : View.ld x2 r0_2a (ix2 e f) = x2 (ix2 e (colL f)) := by
  show x2 (r0_2a.idx (ix2 e f)) = x2 (ix2 e (colL f))
  refine congrArg x2 (funext fun a => Fin.ext ?_)
  match a with
  | ⟨0, _⟩ => show 0 + 1 * e.val = e.val; omega
  | ⟨1, _⟩ => show 0 + 1 * f.val = f.val; omega

/-- The right 256 columns, read through the second. -/
theorem ld_right (x2 : Vec Ideal S256x512 .bf16) (e f : Fin 256) : View.ld x2 r0_2b (ix2 e f) = x2 (ix2 e (colR f)) := by
  show x2 (r0_2b.idx (ix2 e f)) = x2 (ix2 e (colR f))
  refine congrArg x2 (funext fun a => Fin.ext ?_)
  match a with
  | ⟨0, _⟩ => show 0 + 1 * e.val = e.val; omega
  | ⟨1, _⟩ => show 256 + 1 * f.val = 256 + f.val; omega

/-- The result buffer after the body at (p, q, f): row `p` of the first block against the left columns, row `q` of the
    second block against the right columns, and the bias. -/
theorem out_at (x0 : Vec Ideal S1x64x256 .bf16) (x1 : Vec Ideal S1x128x256 .bf16) (x2 : Vec Ideal S256x512 .bf16) (x3 : Vec Ideal S1x256 .f32)
    (p : Fin 64) (q : Fin 128) (f : Fin 256) :
    out0_4 (F := Ideal) x0 x1 x2 x3 (ix4 (0 : Fin 1) p q f)
      = ((∑ e : Fin 256, x0 (ix3 (0 : Fin 1) p e) * x2 (ix2 e (colL f))) + (∑ e : Fin 256, x1 (ix3 (0 : Fin 1) q e) * x2 (ix2 e (colR f))))
        + x3 (ix2 (0 : Fin 1) f) := by
  unfold out0_4
  rw [View.canon_unit_zero hz4]
  refine (Cert.KernelIdeal.PayValue.pay_at _ _ _ _ _ p q f).trans ?_
  refine congrArg₂ (· + ·) (congrArg₂ (· + ·) (Finset.sum_congr rfl fun e _ => ?_) (Finset.sum_congr rfl fun e _ => ?_)) ?_
  · exact congrArg₂ (· * ·) (congrFun (View.ld_unit_zero hz3 _ x0) _) (ld_left x2 e f)
  · exact congrArg₂ (· * ·) (congrFun (View.ld_unit_zero hz3 _ x1) _) (ld_right x2 e f)
  · exact congrFun (View.ld_unit_zero hz2 _ x3) _

/-! ## The arrays the host operations wrote, as the region finds them -/

theorem V_v5 (c : Dev nD) :
    (V m c main_v5 : S4x256x256.Idx → EReal) = truncf (F := Ideal) .bf16 (m ((c : Thread nD τ).loc main_arg0)) bitsLt_bf16_f32 := by
  dsimp only [V, hostOps0]; after_results

theorem V_v6 (c : Dev nD) :
    (V m c main_v6 : S256x512.Idx → EReal) = truncf (F := Ideal) .bf16 (HostRead.wt (m ((c : Thread nD τ).loc main_arg1))
      slices_S256x512_S256x256_0_0 slices_S256x512_S256x256_0_256 transposes_S256x256_S256x256_1_0 concatenates_S256x256_S256x256_S256x512_d1) bitsLt_bf16_f32 := by
  dsimp only [V, hostOps0]; after_results

theorem V_v7 (c : Dev nD) :
    (V m c main_v7 : S1x256.Idx → EReal) = shapeCast S1x256 (m ((c : Thread nD τ).loc main_arg2)) shapeCasts_S256_S1x256 := by
  dsimp only [V, hostOps0]; after_results; rfl

/-- The bf16 copy of `x` is `x` at the exact reals. -/
theorem V_v5_apply (c : Dev nD) (i : S4x256x256.Idx) : V m c main_v5 i = m ((c : Thread nD τ).loc main_arg0) i := by
  rw [V_v5]; rfl
theorem V_v6_left (c : Dev nD) (e f : Fin 256) : V m c main_v6 (ix2 e (colL f)) = m ((c : Thread nD τ).loc main_arg1) (ix2 f (colL e)) := by
  rw [V_v6]
  exact HostRead.wt_left (m ((c : Thread nD τ).loc main_arg1)) slices_S256x512_S256x256_0_0 slices_S256x512_S256x256_0_256
    transposes_S256x256_S256x256_1_0 concatenates_S256x256_S256x256_S256x512_d1 e f
theorem V_v6_right (c : Dev nD) (e f : Fin 256) : V m c main_v6 (ix2 e (colR f)) = m ((c : Thread nD τ).loc main_arg1) (ix2 f (colR e)) := by
  rw [V_v6]
  exact HostRead.wt_right (m ((c : Thread nD τ).loc main_arg1)) slices_S256x512_S256x256_0_0 slices_S256x512_S256x256_0_256
    transposes_S256x256_S256x256_1_0 concatenates_S256x256_S256x256_S256x512_d1 e f
theorem V_v7_apply (c : Dev nD) (f : Fin 256) : V m c main_v7 (ix2 (0 : Fin 1) f) = m ((c : Thread nD τ).loc main_arg2) (ix1 f) := by
  rw [V_v7]; exact HostRead.bias_row _ _ f

/-! ## The index maps over the grid -/

/-- The first input window moves with the result's batch and first row axes, the second with its batch and second row
    axes; the weights and the bias stay; the result's block indices stay in their ranges. -/
theorem idx_facts : ∀ t : Fin cfg0.N,
    win0_0.index t (0 : Fin 3) = win0_4.index t (0 : Fin 4) ∧ win0_0.index t (1 : Fin 3) = win0_4.index t (1 : Fin 4) ∧ win0_0.index t (2 : Fin 3) = 0
    ∧ win0_1.index t (0 : Fin 3) = win0_4.index t (0 : Fin 4) ∧ win0_1.index t (1 : Fin 3) = win0_4.index t (2 : Fin 4) ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 4) ≤ 3 ∧ win0_4.index t (1 : Fin 4) ≤ 3 ∧ win0_4.index t (2 : Fin 4) ≤ 1 ∧ win0_4.index t (3 : Fin 4) = 0 :=
  (by decide +kernel : ∀ t : Fin grid0.N, _)

/-- Every block of the result array is some point's. -/
theorem idx_onto : ∀ (q0 : Fin 4) (q1 : Fin 4) (q2 : Fin 2), ∃ t : Fin cfg0.N, win0_4.index t = ![q0.val, q1.val, q2.val, 0] :=
  (by decide +kernel : ∀ (q0 : Fin 4) (q1 : Fin 4) (q2 : Fin 2), ∃ t : Fin grid0.N, win0_4.index t = ![q0.val, q1.val, q2.val, 0])

/-! ## The input blocks at a point, read where the result's rectangle says -/

/-- Row `p` of the first block of `x` at point `t` is the row of `x` the result's index names on its first row axis. -/
theorem blk0_at (c : Dev nD) (t : Fin cfg0.N) (p : Fin 64) (q : Fin 128) (f e : Fin 256) :
    (iblk m c 0 t : S1x64x256.Idx → EReal) (ix3 (0 : Fin 1) p e)
      = m ((c : Thread nD τ).loc main_arg0) (ix3 ((((cfg0.win 4).blk t).view.emb (ix4 (0 : Fin 1) p q f)) 0) ((((cfg0.win 4).blk t).view.emb (ix4 (0 : Fin 1) p q f)) 1) e) := by
  obtain ⟨e0, e1, e2, -⟩ := idx_facts t
  show V m c main_v5 (((cfg0.win 0).blk t).view.emb (ix3 (0 : Fin 1) p e)) = _
  rw [V_v5_apply]
  refine congrArg (m ((c : Thread nD τ).loc main_arg0)) (funext fun a => Fin.ext ?_)
  match a with
  | ⟨0, _⟩ => show win0_0.index t (0 : Fin 3) * 1 + 1 * 0 = win0_4.index t (0 : Fin 4) * 1 + 1 * 0; omega
  | ⟨1, _⟩ => show win0_0.index t (1 : Fin 3) * 64 + 1 * p.val = win0_4.index t (1 : Fin 4) * 64 + 1 * p.val; omega
  | ⟨2, _⟩ => show win0_0.index t (2 : Fin 3) * 256 + 1 * e.val = e.val; omega

/-- Row `q` of the second block of `x` at point `t` is the row of `x` the result's index names on its second row axis. -/
theorem blk1_at (c : Dev nD) (t : Fin cfg0.N) (p : Fin 64) (q : Fin 128) (f e : Fin 256) :
    (iblk m c 1 t : S1x128x256.Idx → EReal) (ix3 (0 : Fin 1) q e)
      = m ((c : Thread nD τ).loc main_arg0) (ix3 ((((cfg0.win 4).blk t).view.emb (ix4 (0 : Fin 1) p q f)) 0) ((((cfg0.win 4).blk t).view.emb (ix4 (0 : Fin 1) p q f)) 2) e) := by
  obtain ⟨-, -, -, e3, e4, e5, -⟩ := idx_facts t
  show V m c main_v5 (((cfg0.win 1).blk t).view.emb (ix3 (0 : Fin 1) q e)) = _
  rw [V_v5_apply]
  refine congrArg (m ((c : Thread nD τ).loc main_arg0)) (funext fun a => Fin.ext ?_)
  match a with
  | ⟨0, _⟩ => show win0_1.index t (0 : Fin 3) * 1 + 1 * 0 = win0_4.index t (0 : Fin 4) * 1 + 1 * 0; omega
  | ⟨1, _⟩ => show win0_1.index t (1 : Fin 3) * 128 + 1 * q.val = win0_4.index t (2 : Fin 4) * 128 + 1 * q.val; omega
  | ⟨2, _⟩ => show win0_1.index t (2 : Fin 3) * 256 + 1 * e.val = e.val; omega

/-- The weights' block is the whole transposed matrix at every point. -/
theorem blk2_at (c : Dev nD) (t : Fin cfg0.N) (y : S256x512.Idx) : (iblk m c 2 t : S256x512.Idx → EReal) y = V m c main_v6 y := by
  obtain ⟨-, -, -, -, -, -, e6, e7, -⟩ := idx_facts t
  show V m c main_v6 (((cfg0.win 2).blk t).view.emb y) = _
  refine congrArg (V m c main_v6) (funext fun a => Fin.ext ?_)
  match a with
  | ⟨0, _⟩ => show win0_2.index t (0 : Fin 2) * 256 + 1 * (y 0).val = (y 0).val; omega
  | ⟨1, _⟩ => show win0_2.index t (1 : Fin 2) * 512 + 1 * (y 1).val = (y 1).val; omega

/-- The bias's block is the whole row at every point. -/
theorem blk3_at (c : Dev nD) (t : Fin cfg0.N) (y : S1x256.Idx) : (iblk m c 3 t : S1x256.Idx → EReal) y = V m c main_v7 y := by
  obtain ⟨-, -, -, -, -, -, -, -, e8, e9, -⟩ := idx_facts t
  show V m c main_v7 (((cfg0.win 3).blk t).view.emb y) = _
  refine congrArg (V m c main_v7) (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

/-! ## What a point writes back -/

/-- WHAT POINT `t` WRITES BACK is block `t` of the pairwise result of the argument arrays. -/
theorem flushed_eq (c : Dev nD) (t : Fin cfg0.N) :
    (dats m 0 c).flushed 4 t = ((cfg0.win 4).blk t).view.read (Elt Ideal)
      (pair (m ((c : Thread nD τ).loc main_arg0)) (m ((c : Thread nD τ).loc main_arg1)) (m ((c : Thread nD τ).loc main_arg2))) := by
  show (cfg0.win 4).cut (grid0.coords t) ((dats m 0 c).after 4 t) = _
  rw [after0_4]
  funext j
  obtain ⟨u, p, q, f, rfl⟩ : ∃ (u : Fin 1) (p : Fin 64) (q : Fin 128) (f : Fin 256), j = ix4 u p q f := ⟨j 0, j 1, j 2, j 3, eq_ix4 j⟩
  obtain rfl : u = 0 := Subsingleton.elim _ _
  refine (out_at _ _ _ _ p q f).trans ?_
  show _ = pairAt _ _ _ ((((cfg0.win 4).blk t).view.emb (ix4 (0 : Fin 1) p q f)) 0) ((((cfg0.win 4).blk t).view.emb (ix4 (0 : Fin 1) p q f)) 1)
    ((((cfg0.win 4).blk t).view.emb (ix4 (0 : Fin 1) p q f)) 2) ((((cfg0.win 4).blk t).view.emb (ix4 (0 : Fin 1) p q f)) 3)
  have hf : ((((cfg0.win 4).blk t).view.emb (ix4 (0 : Fin 1) p q f)) 3) = f := by
    obtain ⟨-, -, -, -, -, -, -, -, -, -, -, -, -, e13⟩ := idx_facts t
    apply Fin.ext
    show win0_4.index t (3 : Fin 4) * 256 + 1 * f.val = f.val
    omega
  rw [hf]
  unfold pairAt projL projR
  refine congrArg₂ (· + ·) (congrArg₂ (· + ·) ?_ ?_) ?_
  · refine Finset.sum_congr rfl fun e _ => congrArg₂ (· * ·) (blk0_at m c t p q f e) ?_
    rw [blk2_at, V_v6_left]
  · refine Finset.sum_congr rfl fun e _ => congrArg₂ (· * ·) (blk1_at m c t p q f e) ?_
    rw [blk2_at, V_v6_right]
  · rw [blk3_at, V_v7_apply]

/-! ## The blocks tile the result array -/

theorem mem_blk (t : Fin cfg0.N) (i : S4x256x256x256.Idx) :
    i ∈ ((cfg0.win 4).blk t).view.set ↔ ∀ a : Fin 4, win0_4.index t a * S1x64x128x256.size a ≤ (i a).val ∧ (i a).val < win0_4.index t a * S1x64x128x256.size a + S1x64x128x256.size a := by
  show i ∈ ((View.whole main_v8).slice (win0_4.rect t)).set ↔ _
  rw [View.set_slice_whole, Rect.mem_set_unit]
  exact Iff.rfl

/-- Every index of the result array lies in the block of the point (b, i / 64, j / 128). -/
theorem cover (i : S4x256x256x256.Idx) : ∃ t : Fin cfg0.N, (cfg0.win 4).flush t = true ∧ i ∈ ((cfg0.win 4).blk t).view.set := by
  have hi0 : (i 0).val < 4 := (i 0).isLt
  have hi1 : (i 1).val < 256 := (i 1).isLt
  have hi2 : (i 2).val < 256 := (i 2).isLt
  have hi3 : (i 3).val < 256 := (i 3).isLt
  obtain ⟨t, ht⟩ := idx_onto ⟨(i 0).val, by omega⟩ ⟨(i 1).val / 64, by omega⟩ ⟨(i 2).val / 128, by omega⟩
  have q0 : win0_4.index t (0 : Fin 4) = (i 0).val := congrFun ht 0
  have q1 : win0_4.index t (1 : Fin 4) = (i 1).val / 64 := congrFun ht 1
  have q2 : win0_4.index t (2 : Fin 4) = (i 2).val / 128 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 64 ≤ (i 1).val ∧ (i 1).val < win0_4.index t (1 : Fin 4) * 64 + 64; omega
  | ⟨2, _⟩ => show win0_4.index t (2 : Fin 4) * 128 ≤ (i 2).val ∧ (i 2).val < win0_4.index t (2 : Fin 4) * 128 + 128; omega
  | ⟨3, _⟩ => show win0_4.index t (3 : Fin 4) * 256 ≤ (i 3).val ∧ (i 3).val < win0_4.index t (3 : Fin 4) * 256 + 256; omega

/-- THE RESULT ARRAY after the run is the pairwise result of the argument arrays. -/
theorem final (c : Dev nD) : (dats m 0 c).arrAt 4 cfg0.N
    = pair (m ((c : Thread nD τ).loc main_arg0)) (m ((c : Thread nD τ).loc main_arg1)) (m ((c : Thread nD τ).loc main_arg2)) :=
  (dats m 0 c).arrAt_eq_of_cover 4 _ (fun t _ => flushed_eq m c t) cover

/-! ## The run, read -/

/-- Every weakly fair execution ends with the result array at the pairwise result of the arguments and the arguments
    unchanged. -/
theorem run : θ_run defs (onTc (τ := τ) (main (F := Ideal))) ⟨m, fun _ => 0, ρ⟩ fun r => ∀ c : Dev nD,
      r.2.mem ((c.tc : Thread nD τ).loc main_v8)
        = pair (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 4).trans (final m c),
     ((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c)⟩) (run_main m ρ)

end Cert.KernelIdeal.Val

end
-- ==== Proof.RefValue.lean ====
import proofs.«116326_j55379308314761_2_alg».proof.Proof.Gen.ReferenceIdeal.Read
import proofs.«116326_j55379308314761_2_alg».proof.Proof.Spec
import Idealize.ShloMosaic.Lib.ValueIdx
import Idealize.ShloMosaic.Lib.Pipeline.Value
import Idealize.ShloMosaic.PureOps.Ideal.Laws

/-
  The reference program computes the specification.

  The reference slices the weight matrix into its left and right halves, contracts each half with the
  input (element (b, s, f) of a product is Σ_k x[b,s,k] · W[f,k] for the left half and Σ_k x[b,s,k] · W[f,256+k]
  for the right half), spreads the left product over the second sequence axis (so (b,i,j,f) reads (b,i,f)) and
  the right product over the first (so (b,i,j,f) reads (b,j,f)), adds the two, and adds the bias spread over
  every axis but the last. Read at an index (b,i,j,f) this is

      (Σ_k x[b,i,k] · W[f,k]  +  Σ_k x[b,j,k] · W[f,256+k])  +  bias[f],

  which is the specification's value there, with the same order of the factors and of the additions: the proof
  is the composition of the index maps of the layout operations and nothing else.
-/

noncomputable section

open scoped BigOperators

namespace Cert.ReferenceIdeal.RefValue

open Cert.ReferenceIdeal Cert.ReferenceIdeal.Gen Cert.ReferenceIdeal.Read Idealize.ShloMosaic
  Idealize.ShloMosaic.ValueIdx Idealize.ShloMosaic.StableHlo

/-! ## The composed index maps at coordinates -/

/-- Left product under its two broadcasts: the input is read at row `i`, column `k`. -/
theorem lidx_left (b : Fin 4) (i j f k : Fin 256) :
    lidx_main_v2 (idx_main_v4 (idx_main_v6 (ix4 b i j f))) k = ix3 b i k :=
  funext fun a => Fin.ext (by match a with | ⟨0, _⟩ => rfl | ⟨1, _⟩ => rfl | ⟨2, _⟩ => rfl)

/-- Left product under its two broadcasts: the weights are read at row `f`, column `k` of the left half. -/
theorem ridx_left (b : Fin 4) (i j f k : Fin 256) :
    idx_main_v0 (ridx_main_v2 (idx_main_v4 (idx_main_v6 (ix4 b i j f))) k) = ix2 f (Cert.Spec.colL k) :=
  funext fun a => Fin.ext (by match a with | ⟨0, _⟩ => rfl | ⟨1, _⟩ => rfl)

/-- Right product under its two broadcasts: the input is read at row `j`, column `k`. -/
theorem lidx_right (b : Fin 4) (i j f k : Fin 256) :
    lidx_main_v3 (idx_main_v5 (idx_main_v7 (ix4 b i j f))) k = ix3 b j k :=
  funext fun a => Fin.ext (by match a with | ⟨0, _⟩ => rfl | ⟨1, _⟩ => rfl | ⟨2, _⟩ => rfl)

/-- Right product under its two broadcasts: the weights are read at row `f`, column `256 + k`. -/
theorem ridx_right (b : Fin 4) (i j f k : Fin 256) :
    idx_main_v1 (ridx_main_v3 (idx_main_v5 (idx_main_v7 (ix4 b i j f))) k) = ix2 f (Cert.Spec.colR k) :=
  funext fun a => Fin.ext (by match a with | ⟨0, _⟩ => rfl | ⟨1, _⟩ => rfl)

/-- The bias under its two broadcasts is read at the feature coordinate. -/
theorem idx_bias (b : Fin 4) (i j f : Fin 256) :
    idx_main_v9 (idx_main_v10 (ix4 b i j f)) = ix1 f :=
  funext fun a => Fin.ext (by match a with | ⟨0, _⟩ => rfl)

/-! ## The reference's last stage is the specification -/

/-- The reference's result, as the last stage of the generated reading, is the pairwise specification. -/
theorem val_eq (x0 : FVec Ideal S4x256x256 .f32) (x1 : FVec Ideal S256x512 .f32) (x2 : FVec Ideal S256 .f32) :
    val_main_v11 (F := Ideal) x0 x1 x2 = Cert.Spec.pair x0 x1 x2 := by
  funext o
  obtain ⟨b, i, j, f, rfl⟩ : ∃ (b : Fin 4) (i j f : Fin 256), o = ix4 b i j f :=
    ⟨o 0, o 1, o 2, o 3, eq_ix4 o⟩
  rw [val_main_v11_apply, val_main_v8_apply, val_main_v6_apply, val_main_v4_apply, val_main_v2_apply,
    val_main_v7_apply, val_main_v5_apply, val_main_v3_apply, val_main_v10_apply, val_main_v9_apply]
  simp only [val_main_v0_apply, val_main_v1_apply, lidx_left, ridx_left, lidx_right, ridx_right, idx_bias,
    Ideal.addf_def]
  rfl

/-- The composed term the reference's run ends at is the pairwise specification. -/
theorem ref_eq (x0 : FVec Ideal S4x256x256 .f32) (x1 : FVec Ideal S256x512 .f32) (x2 : FVec Ideal S256 .f32) :
    addf (addf (broadcastInDim S4x256x256x256 ![0, 1, 2, 3] bcast_S4x256x1x256_S4x256x256x256_0_1_2_3 (broadcastInDim S4x256x1x256 ![0, 1, 3] bcast_S4x256x256_S4x256x1x256_0_1_3 (Host.dotGeneral dot_S4x256x256_S256x256_S4x256x256_2_1_01_0_n_n none (x0) (extractStridedSlice S256x256 ![0, 0] (x1) slices_S256x512_S256x256_0_0)))) (broadcastInDim S4x256x256x256 ![0, 1, 2, 3] bcast_S4x1x256x256_S4x256x256x256_0_1_2_3 (broadcastInDim S4x1x256x256 ![0, 2, 3] bcast_S4x256x256_S4x1x256x256_0_2_3 (Host.dotGeneral dot_S4x256x256_S256x256_S4x256x256_2_1_01_0_n_n none (x0) (extractStridedSlice S256x256 ![0, 256] (x1) slices_S256x512_S256x256_0_256))))) (broadcastInDim S4x256x256x256 ![0, 1, 2, 3] bcast_S1x1x1x256_S4x256x256x256_0_1_2_3 (broadcastInDim S1x1x1x256 ![3] bcast_S256_S1x1x1x256_3 (x2)))
      = Cert.Spec.pair x0 x1 x2 :=
  (val_main_v11_eq (F := Ideal) x0 x1 x2).trans (val_eq x0 x1 x2)

end Cert.ReferenceIdeal.RefValue

end
-- ==== Proof.lean ====
/-
  The pairwise linear layer: for every batch `b`, every pair of sequence positions (i, j) and every output feature `f`,

      out[b, i, j, f] = Σ_e x[b, i, e] · W[f, e]  +  Σ_e x[b, j, e] · W[f, 256 + e]  +  bias[f],

  the linear map of the concatenated pair [x_i, x_j] with its bias.

  The kernel computes it block by block: at each grid point two matrix products of blocks of `x` (one of 64 rows, one of
  128 rows, both read from the same array) with the two halves of the transposed weights, broadcast against each other,
  summed, and the bias added. The reference computes the two projections of all of `x` once and broadcasts them. At the
  exact reals a change of float format is the identity and a matrix product is the plain sum of products, so both
  programs' results are the same function of the arguments, index by index, with the same grouping of the two additions:
  no law of the extended reals beyond reading each operation at an index is needed, and the inputs' finiteness is never
  used.

  The three frames: the kernel's two input windows on one array each hold half of that array's share while the region
  runs, so neither can write it and the launch goes through; the argument arrays are no window's array and no host
  operation writes them; the reference is a straight line of host operations. The kernel's idealization rewrites no
  operation, so the preservation claim is trivial.
-/
import proofs.«116326_j55379308314761_2_alg».proof.Defs
import proofs.«116326_j55379308314761_2_alg».proof.Proof.Gen.Kernel
import proofs.«116326_j55379308314761_2_alg».proof.Proof.Gen.KernelIdeal
import proofs.«116326_j55379308314761_2_alg».proof.Proof.Gen.ReferenceIdeal
import proofs.«116326_j55379308314761_2_alg».proof.Proof.Gen.ReferenceIdeal.Run
import proofs.«116326_j55379308314761_2_alg».proof.Proof.Gen.Pre_finite_inputs
import proofs.«116326_j55379308314761_2_alg».proof.Proof.KFrame
import proofs.«116326_j55379308314761_2_alg».proof.Proof.KIFrame
import proofs.«116326_j55379308314761_2_alg».proof.Proof.KIValue
import proofs.«116326_j55379308314761_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves its arguments unchanged. -/
theorem frame_kernel : Cert.frame_Kernel := fun m ρ _ => Cert.Kernel.Fr.frame m ρ

/-- The same of its reading at the exact reals. -/
theorem frame_kernelIdeal : Cert.frame_KernelIdeal := fun m ρ _ => Cert.KernelIdeal.Fr.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the pairwise result of those arguments. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.ref_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
